-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S5000x128 : Shape := ⟨2, ![5000, 128]⟩
abbrev S1x40 : Shape := ⟨2, ![1, 40]⟩
abbrev S50000x40 : Shape := ⟨2, ![50000, 40]⟩
abbrev S5000x40 : Shape := ⟨2, ![5000, 40]⟩
abbrev S600000x40 : Shape := ⟨2, ![600000, 40]⟩

abbrev nBuf : Space → Nat
  | .hbm => 122
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S50000, .f32⟩
  | .hbm, ⟨13, _⟩ => ⟨S600000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S600000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000, .f32⟩
  | .hbm, ⟨45, _⟩ => ⟨S600000x1, .f32⟩
  | .hbm, ⟨46, _⟩ => ⟨S600000x128, .f32⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x128, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000, .f32⟩
  | .hbm, ⟨75, _⟩ => ⟨S600000x1, .f32⟩
  | .hbm, ⟨76, _⟩ => ⟨S600000x128, .f32⟩
  | .hbm, ⟨77, _⟩ => ⟨S600000x128, .f32⟩
  | .hbm, ⟨78, _⟩ => ⟨S_, .f32⟩
  | .hbm, ⟨79, _⟩ => ⟨S50000x128, .f32⟩
  | .hbm, ⟨80, _⟩ => ⟨S600000x1, .i32⟩
  | .hbm, ⟨81, _⟩ => ⟨S50000x128, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S_, .f32⟩
  | .hbm, ⟨88, _⟩ => ⟨S40, .f32⟩
  | .hbm, ⟨89, _⟩ => ⟨S1x40, .f32⟩
  | .hbm, ⟨90, _⟩ => ⟨S50000x40, .f32⟩
  | .hbm, ⟨91, _⟩ => ⟨S_, .i32⟩
  | .hbm, ⟨92, _⟩ => ⟨S600000, .i32⟩
  | .hbm, ⟨93, _⟩ => ⟨S600000, .i1⟩
  | .hbm, ⟨94, _⟩ => ⟨S_, .i32⟩
  | .hbm, ⟨95, _⟩ => ⟨S600000, .i32⟩
  | .hbm, ⟨96, _⟩ => ⟨S600000, .i32⟩
  | .hbm, ⟨97, _⟩ => ⟨S600000, .i32⟩
  | .hbm, ⟨98, _⟩ => ⟨S600000x1, .i32⟩
  | .hbm, ⟨99, _⟩ => ⟨S600000x40, .f32⟩
  | .hbm, ⟨100, _⟩ => ⟨S_, .i32⟩
  | .hbm, ⟨101, _⟩ => ⟨S600000, .i32⟩
  | .hbm, ⟨102, _⟩ => ⟨S600000, .i1⟩
  | .hbm, ⟨103, _⟩ => ⟨S_, .i32⟩
  | .hbm, ⟨104, _⟩ => ⟨S600000, .i32⟩
  | .hbm, ⟨105, _⟩ => ⟨S600000, .i32⟩
  | .hbm, ⟨106, _⟩ => ⟨S600000, .i32⟩
  | .hbm, ⟨107, _⟩ => ⟨S600000x1, .i32⟩
  | .hbm, ⟨108, _⟩ => ⟨S600000, .f32⟩
  | .hbm, ⟨109, _⟩ => ⟨S600000x1, .f32⟩
  | .hbm, ⟨110, _⟩ => ⟨S600000x40, .f32⟩
  | .hbm, ⟨111, _⟩ => ⟨S600000x40, .f32⟩
  | .hbm, ⟨112, _⟩ => ⟨S_, .f32⟩
  | .hbm, ⟨113, _⟩ => ⟨S50000x40, .f32⟩
  | .hbm, ⟨114, _⟩ => ⟨S600000x1, .i32⟩
  | .hbm, ⟨115, _⟩ => ⟨S50000x40, .f32⟩
  | .hbm, ⟨116, _⟩ => ⟨S50000x1, .f32⟩
  | .hbm, ⟨117, _⟩ => ⟨S50000x40, .f32⟩
  | .hbm, ⟨118, _⟩ => ⟨S50000x40, .f32⟩
  | .hbm, ⟨119, _⟩ => ⟨S1x40, .f32⟩
  | .hbm, ⟨120, _⟩ => ⟨S50000x40, .f32⟩
  | .hbm, ⟨121, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x40, .f32⟩
  | .local _ .vmem, ⟨15, _⟩ => ⟨S1x40, .f32⟩
  | .local _ .vmem, ⟨16, _⟩ => ⟨S5000x40, .f32⟩
  | .local _ .vmem, ⟨17, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_14 : Ref sig .tc := ⟨.hbm, 91, rfl⟩
abbrev main_v66 : Ref sig .tc := ⟨.hbm, 92, rfl⟩
abbrev main_v67 : Ref sig .tc := ⟨.hbm, 93, rfl⟩
abbrev main_c_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_16 : Ref sig .tc := ⟨.hbm, 100, rfl⟩
abbrev main_v73 : Ref sig .tc := ⟨.hbm, 101, rfl⟩
abbrev main_v74 : Ref sig .tc := ⟨.hbm, 102, rfl⟩
abbrev main_c_17 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_18 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S40 : S_.BroadcastsInDim S40 (![] : Fin 0 → Fin S40.rank)
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  bcast_S600000x1_S600000x40_0_1 : S600000x1.BroadcastsInDim S600000x40 (![0, 1] : Fin 2 → Fin S600000x40.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  gather_S50000_S600000x1_S600000_n_0_n_n_0_1_1_wf : GatherDims.WF S50000 S600000x1 S600000 [] [0] [] [0] [] 1 ![1]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S50000x40_S600000x1_S600000x40_1_0_n_n_0_1_140_wf : GatherDims.WF S50000x40 S600000x1 S600000x40 [1] [0] [] [0] [] 1 ![1, 40]
  scatter_S50000x40_S600000x1_S600000x40_1_0_0_1_wf : ScatterDims.WF S50000x40 S600000x1 S600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S600000x1_S600000x40_1_0_n_n_0_1_140 : GatherDims S50000x40 S600000x1 S600000x40 where
  offsetDims := [1]
  collapsedSliceDims := [0]
  operandBatchingDims := []
  startIndicesBatchingDims := []
  startIndexMap := [0]
  indexVectorDim := 1
  sliceSizes := ![1, 40]
  wf := gather_S50000x40_S600000x1_S600000x40_1_0_n_n_0_1_140_wf
def scatter_S50000x40_S600000x1_S600000x40_1_0_0_1 : ScatterDims S50000x40 S600000x1 S600000x40 where
  updateWindowDims := [1]
  insertedWindowDims := [0]
  scatterDimsToOperandDims := [0]
  indexVectorDim := 1
  wf := scatter_S50000x40_S600000x1_S600000x40_1_0_0_1_wf

abbrev win0_0 : Pipeline.Window sig grid0 :=
  Pipeline.Window.ofSpec (Memref.whole main_v35) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v60) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v62) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S50000x40 : Shape := ⟨2, ![50000, 40]⟩
abbrev S600000x40 : Shape := ⟨2, ![600000, 40]⟩
abbrev S1x40 : Shape := ⟨2, ![1, 40]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S600000, .i32⟩
  | 2 => ⟨S600000, .i32⟩
  | 3 => ⟨S128x128, .f32⟩
  | 4 => ⟨S128, .f32⟩
  | 5 => ⟨S128x128, .f32⟩
  | 6 => ⟨S128, .f32⟩
  | 7 => ⟨S128x40, .f32⟩
  | 8 => ⟨S40, .f32⟩
  | 9 => ⟨S_, .f32⟩
  | 10 => ⟨S600000, .f32⟩
  | 11 => ⟨S_, .f32⟩
  | 12 => ⟨S50000, .f32⟩
  | 13 => ⟨S600000x1, .i32⟩
  | 14 => ⟨S50000, .f32⟩
  | 15 => ⟨S_, .f32⟩
  | 16 => ⟨S50000, .f32⟩
  | 17 => ⟨S600000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x128, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000, .f32⟩
  | 45 => ⟨S600000x1, .f32⟩
  | 46 => ⟨S600000x128, .f32⟩
  | 47 => ⟨S600000x128, .f32⟩
  | 48 => ⟨S_, .f32⟩
  | 49 => ⟨S50000x128, .f32⟩
  | 50 => ⟨S600000x1, .i32⟩
  | 51 => ⟨S50000x128, .f32⟩
  | 52 => ⟨S50000x1, .f32⟩
  | 53 => ⟨S50000x128, .f32⟩
  | 54 => ⟨S50000x128, .f32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S_, .i32⟩
  | 63 => ⟨S600000, .i32⟩
  | 64 => ⟨S600000, .i1⟩
  | 65 => ⟨S_, .i32⟩
  | 66 => ⟨S600000, .i32⟩
  | 67 => ⟨S600000, .i32⟩
  | 68 => ⟨S600000, .i32⟩
  | 69 => ⟨S600000x1, .i32⟩
  | 70 => ⟨S600000x128, .f32⟩
  | 71 => ⟨S_, .i32⟩
  | 72 => ⟨S600000, .i32⟩
  | 73 => ⟨S600000, .i1⟩
  | 74 => ⟨S_, .i32⟩
  | 75 => ⟨S600000, .i32⟩
  | 76 => ⟨S600000, .i32⟩
  | 77 => ⟨S600000, .i32⟩
  | 78 => ⟨S600000x1, .i32⟩
  | 79 => ⟨S600000, .f32⟩
  | 80 => ⟨S600000x1, .f32⟩
  | 81 => ⟨S600000x128, .f32⟩
  | 82 => ⟨S600000x128, .f32⟩
  | 83 => ⟨S_, .f32⟩
  | 84 => ⟨S50000x128, .f32⟩
  | 85 => ⟨S600000x1, .i32⟩
  | 86 => ⟨S50000x128, .f32⟩
  | 87 => ⟨S50000x1, .f32⟩
  | 88 => ⟨S50000x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x40, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x40, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000, .f32⟩
  | 116 => ⟨S600000x1, .f32⟩
  | 117 => ⟨S600000x40, .f32⟩
  | 118 => ⟨S600000x40, .f32⟩
  | 119 => ⟨S_, .f32⟩
  | 120 => ⟨S50000x40, .f32⟩
  | 121 => ⟨S600000x1, .i32⟩
  | 122 => ⟨S50000x40, .f32⟩
  | 123 => ⟨S50000x1, .f32⟩
  | 124 => ⟨S50000x40, .f32⟩
  | 125 => ⟨S50000x40, .f32⟩
  | 126 => ⟨S1x40, .f32⟩
  | 127 => ⟨S50000x40, .f32⟩
  | _ => ⟨S50000x128, .f32⟩

abbrev hbmTy0_1 (i : Nat) : BufTy := match i % 128 with
  | 0 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call0_cst : Ref sig .tc := ⟨.hbm, 59, rfl⟩
abbrev main_call0_v0 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call1_cst : Ref sig .tc := ⟨.hbm, 94, rfl⟩
abbrev main_call1_v0 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_c_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_15 : Ref sig .tc := ⟨.hbm, 107, rfl⟩
abbrev main_v77 : Ref sig .tc := ⟨.hbm, 108, rfl⟩
abbrev main_v78 : Ref sig .tc := ⟨.hbm, 109, rfl⟩
abbrev main_c_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S600000x1_S600000x40_0_1 : S600000x1.BroadcastsInDim S600000x40 (![0, 1] : Fin 2 → Fin S600000x40.rank)
  bcast_S_S50000x40 : S_.BroadcastsInDim S50000x40 (![] : Fin 0 → Fin S50000x40.rank)
  bcast_S50000x1_S50000x40_0_1 : S50000x1.BroadcastsInDim S50000x40 (![0, 1] : Fin 2 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  gather_S50000_S600000x1_S600000_n_0_n_n_0_1_1_wf : GatherDims.WF S50000 S600000x1 S600000 [] [0] [] [0] [] 1 ![1]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []
  gather_S50000x40_S600000x1_S600000x40_1_0_n_n_0_1_140_wf : GatherDims.WF S50000x40 S600000x1 S600000x40 [1] [0] [] [0] [] 1 ![1, 40]
  scatter_S50000x40_S600000x1_S600000x40_1_0_0_1_wf : ScatterDims.WF S50000x40 S600000x1 S600000x40 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S600000x1_S600000x40_1_0_n_n_0_1_140 : GatherDims S50000x40 S600000x1 S600000x40 where
  offsetDims := [1]
  collapsedSliceDims := [0]
  operandBatchingDims := []
  startIndicesBatchingDims := []
  startIndexMap := [0]
  indexVectorDim := 1
  sliceSizes := ![1, 40]
  wf := gather_S50000x40_S600000x1_S600000x40_1_0_n_n_0_1_140_wf
def scatter_S50000x40_S600000x1_S600000x40_1_0_0_1 : ScatterDims S50000x40 S600000x1 S600000x40 where
  updateWindowDims := [1]
  insertedWindowDims := [0]
  scatterDimsToOperandDims := [0]
  indexVectorDim := 1
  wf := scatter_S50000x40_S600000x1_S600000x40_1_0_0_1_wf

class Facts : Prop extends Facts₀ where

variable [Facts]
-- ==== Proof.KernelRun.lean ====
/-
  The idealized kernel's run with its result named: every weakly fair execution of @main terminates, nothing
  faulting, with the result buffer holding what the fold of @main's seven segments — four stretches of host
  operations and three regions, each region's arrays at what its write-backs leave — puts there, and the argument
  arrays as launched.
-/
import proofs.«125223_j53618371723995_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the seven segments, read at the result buffer and at the arguments: the last thread state holds every
    unscoped buffer at the last boundary's contents, and the final memory is read against it. -/
theorem run_value : θ_run defs (onTc (τ := τ) (main (F := F))) ⟨m, fun _ => 0, ρ⟩ (fun r => ∀ c : Dev nD,
      r.2.mem ((c.tc : Thread nD τ).loc main_v91) = W7 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v91 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.Run

end
-- ==== Proof.LibPlainDot.lean ====
/-
  A plain matrix product — M×K by K×N, the left operand contracted on its columns and the right on its rows, no batch
  axis (`DotDims.plain M K N`) — read at an index at the ideal values, for any extents.

  * `plain_lhsIdx` / `plain_rhsIdx`: at result index (r, c) and contraction coordinate k the operand indices are
    (r, k) and (k, c).
  * `dotGeneral_plain_apply`: the host's product at (r, c) is the sum over k of left (r, k) times right (k, c).
  * `matmul_plain_zero_apply`: the vector unit's product into a zero accumulator is the same sum.
  * `matmul_plain_zero_eq_dotGeneral`: a product of a block of rows (of any two formats) at a block index is the
    product of whole arrays (of any two formats, under any precision and schedule key) at an array index, as soon as the
    block's row is the array's row and the right operands' columns agree: no rounding is left at the ideal values, so
    the tiling of the rows and the operand formats do not matter.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The left operand's index of a plain product at result index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ (0 : Fin (⟨2, ![M, K]⟩ : Shape).rank)).val = (j 0).val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ => exact ((DotDims.plain M K N).lhsIdx_val_of_single rfl j _).trans hk

/-- The right operand's index of a plain product at result index `j` and contraction coordinate `k` is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ (1 : Fin (⟨2, ![K, N]⟩ : Shape).rank)).val = (j 1).val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The host's plain product at the ideal values, at (r, c): the sum over k of left (r, k) times right (k, c). -/
theorem dotGeneral_plain_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) := by
  rw [Ideal.dotGeneral_apply, ← Equiv.sum_comp (contrEquiv1 (DotDims.plain M K N) K rfl rfl).symm]
  refine Finset.sum_congr rfl fun k _ => ?_
  rw [plain_lhsIdx, plain_rhsIdx]
  rfl

/-- The vector unit's plain product into a zero accumulator, at the ideal values, at (r, c): the same sum. -/
theorem matmul_plain_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

/-- A block of B rows times a right operand, into zero, read at block index `y`, is the whole M-row product read at array
    index `i`, when the block's row at `y` is the array's row at `i` and the right operands agree on the column. -/
theorem matmul_plain_zero_eq_dotGeneral {B : Nat} {φ₁ φ₂ ψ₁ ψ₂ : FTy} (prec prec' : Option ContractPrecision)
    (sched : HostSchedule)
    (lb : FVec Ideal ⟨2, ![B, K]⟩ φ₁) (rb : FVec Ideal ⟨2, ![K, N]⟩ φ₂)
    (l : FVec Ideal ⟨2, ![M, K]⟩ ψ₁) (r : FVec Ideal ⟨2, ![K, N]⟩ ψ₂)
    (y : (⟨2, ![B, N]⟩ : Shape).Idx) (i : (⟨2, ![M, N]⟩ : Shape).Idx)
    (hrow : ∀ k : Fin K, (lb (ix2 (y 0) k) : EReal) = l (ix2 (i 0) k))
    (hcol : ∀ k : Fin K, (rb (ix2 k (y 1)) : EReal) = r (ix2 k (i 1))) :
    (FloatOps.matmul (DotDims.plain B K N) prec lb rb (constant ⟨2, ![B, N]⟩ .f32 0x00000000#32) y : EReal)
      = FloatOps.dotGeneral (DotDims.plain M K N) prec' sched l r i := by
  rw [matmul_plain_zero_apply, dotGeneral_plain_apply]
  exact Finset.sum_congr rfl fun k _ => by rw [hrow k, hcol k]

end Cert.LibPlainDot

end
-- ==== Proof.DenseBody.lean ====
/-
  What each of the three kernel bodies stores, read at one position of its 5000-row output block, at the ideal
  values: a product of the row block with the whole weight matrix into a zero accumulator, plus the 1×N bias row
  repeated down the rows, and for the first two layers the maximum with zero.
-/
import proofs.«125223_j53618371723995_1_alg».proof.Proof.Gen.KernelIdeal.Skeleton
import proofs.«125223_j53618371723995_1_alg».proof.Proof.LibPlainDot
import Idealize.ShloMosaic.Lib.ValueLayout
import Idealize.ShloMosaic.Lib.Pipeline.Value

noncomputable section

open scoped BigOperators

namespace Cert.KernelIdeal.DenseBody

open Cert.KernelIdeal Cert.KernelIdeal.Gen Idealize.ShloMosaic Idealize.ShloMosaic.ValueIdx

/-- The body of region 0 at (p, q) of its output block: the sum over k of x(p,k)·w(k,q), plus the bias row's entry
    (0, q), and the maximum of that with zero. The roundings to bf16 on the way into the product are the identity at the ideal values. -/
theorem pay0_apply (v0 : Vec Ideal S5000x128 .f32) (v3 : Vec Ideal S128x128 .f32) (v6 : Vec Ideal S1x128 .f32)
    (p : Fin 5000) (q : Fin 128) :
    k0_pay1 (F := Ideal) v0 v3 v6 (ix2 p q)
      = max ((∑ k : Fin 128, (v0 (ix2 p k) : EReal) * v3 (ix2 k q)) + v6 (ix2 (0 : Fin 1) q)) 0 := by
  have hm : (FloatOps.matmul dot_S5000x128_S128x128_S5000x128_1_0_0_1_n_n none
        (truncf .bf16 (shapeCast S5000x128 v0 shapeCasts_S5000x128_S5000x128) bitsLt_bf16_f32 : FVec Ideal S5000x128 .bf16)
        (truncf .bf16 v3 bitsLt_bf16_f32 : FVec Ideal S128x128 .bf16) (constant S5000x128 .f32 0x00000000#32) (ix2 p q) : EReal)
      = ∑ k : Fin 128, (v0 (ix2 p k) : EReal) * v3 (ix2 k q) := by
    refine (LibPlainDot.matmul_plain_zero_apply (M := 5000) (K := 128) (N := 128) none _ _ (ix2 p q)).trans ?_
    refine Finset.sum_congr rfl fun k _ => ?_
    show (shapeCast S5000x128 v0 shapeCasts_S5000x128_S5000x128 (ix2 p k) : EReal) * v3 (ix2 k q) = _
    rw [shapeCast_self]
  have hb : (broadcastTo S5000x128 (shapeCast S1x128 v6 shapeCasts_S1x128_S1x128) broadcasts_S1x128_S5000x128 (ix2 p q) : EReal)
      = v6 (ix2 (0 : Fin 1) q) := by
    rw [shapeCast_self]
    exact broadcastTo_1b_ab_apply (a := 5000) (b := 128) v6 _ p q
  unfold k0_pay1
  exact congrArg₂ max (congrArg₂ (· + ·) hm hb) Ideal.ofBits_zero_f32

/-- The body of region 1 at (p, q) of its output block: the sum over k of x(p,k)·w(k,q), plus the bias row's entry
    (0, q), and the maximum of that with zero. The roundings to bf16 on the way into the product are the identity at the ideal values. -/
theorem pay1_apply (v0 : Vec Ideal S5000x128 .f32) (v3 : Vec Ideal S128x128 .f32) (v6 : Vec Ideal S1x128 .f32)
    (p : Fin 5000) (q : Fin 128) :
    k1_pay1 (F := Ideal) v0 v3 v6 (ix2 p q)
      = max ((∑ k : Fin 128, (v0 (ix2 p k) : EReal) * v3 (ix2 k q)) + v6 (ix2 (0 : Fin 1) q)) 0 := by
  have hm : (FloatOps.matmul dot_S5000x128_S128x128_S5000x128_1_0_0_1_n_n none
        (truncf .bf16 (shapeCast S5000x128 v0 shapeCasts_S5000x128_S5000x128) bitsLt_bf16_f32 : FVec Ideal S5000x128 .bf16)
        (truncf .bf16 v3 bitsLt_bf16_f32 : FVec Ideal S128x128 .bf16) (constant S5000x128 .f32 0x00000000#32) (ix2 p q) : EReal)
      = ∑ k : Fin 128, (v0 (ix2 p k) : EReal) * v3 (ix2 k q) := by
    refine (LibPlainDot.matmul_plain_zero_apply (M := 5000) (K := 128) (N := 128) none _ _ (ix2 p q)).trans ?_
    refine Finset.sum_congr rfl fun k _ => ?_
    show (shapeCast S5000x128 v0 shapeCasts_S5000x128_S5000x128 (ix2 p k) : EReal) * v3 (ix2 k q) = _
    rw [shapeCast_self]
  have hb : (broadcastTo S5000x128 (shapeCast S1x128 v6 shapeCasts_S1x128_S1x128) broadcasts_S1x128_S5000x128 (ix2 p q) : EReal)
      = v6 (ix2 (0 : Fin 1) q) := by
    rw [shapeCast_self]
    exact broadcastTo_1b_ab_apply (a := 5000) (b := 128) v6 _ p q
  unfold k1_pay1
  exact congrArg₂ max (congrArg₂ (· + ·) hm hb) Ideal.ofBits_zero_f32

/-- The body of region 2 at (p, q) of its output block: the sum over k of x(p,k)·w(k,q), plus the bias row's entry
    (0, q). The roundings to bf16 on the way into the product are the identity at the ideal values. -/
theorem pay2_apply (v0 : Vec Ideal S5000x128 .f32) (v3 : Vec Ideal S128x40 .f32) (v6 : Vec Ideal S1x40 .f32)
    (p : Fin 5000) (q : Fin 40) :
    k2_pay1 (F := Ideal) v0 v3 v6 (ix2 p q)
      = (∑ k : Fin 128, (v0 (ix2 p k) : EReal) * v3 (ix2 k q)) + v6 (ix2 (0 : Fin 1) q) := by
  have hm : (FloatOps.matmul dot_S5000x128_S128x40_S5000x40_1_0_0_1_n_n none
        (truncf .bf16 (shapeCast S5000x128 v0 shapeCasts_S5000x128_S5000x128) bitsLt_bf16_f32 : FVec Ideal S5000x128 .bf16)
        (truncf .bf16 v3 bitsLt_bf16_f32 : FVec Ideal S128x40 .bf16) (constant S5000x40 .f32 0x00000000#32) (ix2 p q) : EReal)
      = ∑ k : Fin 128, (v0 (ix2 p k) : EReal) * v3 (ix2 k q) := by
    refine (LibPlainDot.matmul_plain_zero_apply (M := 5000) (K := 128) (N := 40) none _ _ (ix2 p q)).trans ?_
    refine Finset.sum_congr rfl fun k _ => ?_
    show (shapeCast S5000x128 v0 shapeCasts_S5000x128_S5000x128 (ix2 p k) : EReal) * v3 (ix2 k q) = _
    rw [shapeCast_self]
  have hb : (broadcastTo S5000x40 (shapeCast S1x40 v6 shapeCasts_S1x40_S1x40) broadcasts_S1x40_S5000x40 (ix2 p q) : EReal)
      = v6 (ix2 (0 : Fin 1) q) := by
    rw [shapeCast_self]
    exact broadcastTo_1b_ab_apply (a := 5000) (b := 40) v6 _ p q
  unfold k2_pay1
  exact congrArg₂ (· + ·) hm hb

end Cert.KernelIdeal.DenseBody

end
-- ==== Proof.LibRowBias.lean ====
/-
  A vector read as a row and repeated down the rows, for any element type and any extents R, C, read at (r, k):
  * `hostRow_apply`: the host's two steps — a length-C vector given a leading unit axis ([C] → [1, C], its axis sent to
    axis 1) and that row broadcast to [R, C] — read at (r, k) the vector's entry k;
  * `vectorRow_apply`: the vector unit's two steps — the vector cast to [1, C] and broadcast to [R, C] — read the same;
  * `hostSplat_apply`: a scalar broadcast to any shape reads the scalar everywhere.
-/
import Idealize.ShloMosaic.Lib.Pipeline.Value
import Idealize.ShloMosaic.Lib.ValueIdx
import Idealize.ShloMosaic.Lib.ValueLayout

noncomputable section

namespace Cert.LibRowBias

open Idealize.ShloMosaic Idealize.ShloMosaic.ValueIdx

variable {α : Type} {R C : Nat}

/-- A length-C vector given a leading unit axis on the host reads, at (u, k), its entry k. -/
theorem hostUnitRow_apply (h1 : (⟨1, ![C]⟩ : Shape).BroadcastsInDim ⟨2, ![1, C]⟩ (![1] : Fin 1 → Fin 2))
    (b : (⟨1, ![C]⟩ : Shape).Idx → α) (u : Fin 1) (k : Fin C) :
    broadcastInDim ⟨2, ![1, C]⟩ (![1] : Fin 1 → Fin 2) h1 b (ix2 u k) = b (ix1 k) := by
  refine broadcastInDim_apply _ h1 b (ix2 u k) (ix1 k) fun a => ?_
  match a with
  | ⟨0, _⟩ =>
    show k.val = if C = 1 then 0 else k.val
    split
    · have := k.isLt; omega
    · rfl

/-- That row broadcast to R rows reads, at (r, k), the row's entry (0, k). -/
theorem hostRows_apply (h2 : (⟨2, ![1, C]⟩ : Shape).BroadcastsInDim ⟨2, ![R, C]⟩ (![0, 1] : Fin 2 → Fin 2))
    (v : (⟨2, ![1, C]⟩ : Shape).Idx → α) (r : Fin R) (k : Fin C) :
    broadcastInDim ⟨2, ![R, C]⟩ (![0, 1] : Fin 2 → Fin 2) h2 v (ix2 r k) = v (ix2 (0 : Fin 1) k) := by
  refine broadcastInDim_apply _ h2 v (ix2 r k) (ix2 (0 : Fin 1) k) fun a => ?_
  match a with
  | ⟨0, _⟩ => rfl
  | ⟨1, _⟩ =>
    show k.val = if C = 1 then 0 else k.val
    split
    · have := k.isLt; omega
    · rfl

/-- The host's row of a vector, repeated down R rows, reads at (r, k) the vector's entry k. -/
theorem hostRow_apply (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2))
    (b : (⟨1, ![C]⟩ : Shape).Idx → α) (r : Fin R) (k : Fin C) :
    broadcastInDim ⟨2, ![R, C]⟩ (![0, 1] : Fin 2 → Fin 2) h2 (broadcastInDim ⟨2, ![1, C]⟩ (![1] : Fin 1 → Fin 2) h1 b) (ix2 r k)
      = b (ix1 k) :=
  (hostRows_apply h2 _ r k).trans (hostUnitRow_apply h1 b 0 k)

/-- The vector unit's row of a vector, repeated down R rows, reads at (r, k) the vector's entry k. -/
theorem vectorRow_apply (h1 : (⟨1, ![C]⟩ : Shape).ShapeCasts ⟨2, ![1, C]⟩)
    (h2 : (⟨2, ![1, C]⟩ : Shape).Broadcasts ⟨2, ![R, C]⟩)
    (b : (⟨1, ![C]⟩ : Shape).Idx → α) (r : Fin R) (k : Fin C) :
    broadcastTo ⟨2, ![R, C]⟩ (shapeCast ⟨2, ![1, C]⟩ b h1) h2 (ix2 r k) = b (ix1 k) :=
  (broadcastTo_1b_ab_apply _ h2 r k).trans (shapeCast_a_1a_apply b h1 0 k)

/-- A scalar broadcast on the host to any shape reads the scalar at every index. -/
theorem hostSplat_apply {s : Shape} (h : (⟨0, ![]⟩ : Shape).BroadcastsInDim s (![] : Fin 0 → Fin s.rank))
    (v : (⟨0, ![]⟩ : Shape).Idx → α) (j : s.Idx) :
    broadcastInDim s (![] : Fin 0 → Fin s.rank) h v j = v ix0 :=
  broadcastInDim_apply _ h v j ix0 fun a => a.elim0

end Cert.LibRowBias

end
-- ==== Proof.DenseSpec.lean ====
/-
  One dense layer on extended reals, for any extents: the affine map x·W + b read at (r, c) as the sum over k of
  x(r,k)·W(k,c) plus b(c), and the same followed by the rectifier max(·, 0).

  * `host_affine_eq` / `host_affineRelu_eq`: the host's spelling — a `dot_general` of the whole arrays, the bias made a
    row and repeated down the rows, a maximum with a splat of the zero word — is that function.
  * `host_prod_eq`: a bare host product is the affine map with a bias that is zero everywhere, because s + 0 = s
    for every extended real s.
-/
import Idealize.ShloMosaic.PureOps.Ideal.Laws
import Idealize.ShloMosaic.Lib.ValueIdx
import Idealize.ShloMosaic.Lib.ValueLayout
import Idealize.ShloMosaic.Lib.Pipeline.Value
import proofs.«125223_j53618371723995_1_alg».proof.Proof.LibPlainDot
import proofs.«125223_j53618371723995_1_alg».proof.Proof.LibRowBias

noncomputable section

open scoped BigOperators

namespace Cert.Dense

open Idealize.ShloMosaic Idealize.ShloMosaic.ValueIdx

variable {R K N : Nat}

/-- The affine map of a dense layer with the bias given as a 1×N row: at (r, c), the sum over k of x(r,k)·w(k,c),
    plus the row's entry (0, c). -/
def affine (x : FVec Ideal ⟨2, ![R, K]⟩ .f32) (w : FVec Ideal ⟨2, ![K, N]⟩ .f32) (b : FVec Ideal ⟨2, ![1, N]⟩ .f32) :
    FVec Ideal ⟨2, ![R, N]⟩ .f32 :=
  fun j => (∑ k : Fin K, x (ix2 (j 0) k) * w (ix2 k (j 1))) + b (ix2 (0 : Fin 1) (j 1))

/-- The affine map followed by the rectifier. -/
def affineRelu (x : FVec Ideal ⟨2, ![R, K]⟩ .f32) (w : FVec Ideal ⟨2, ![K, N]⟩ .f32) (b : FVec Ideal ⟨2, ![1, N]⟩ .f32) :
    FVec Ideal ⟨2, ![R, N]⟩ .f32 :=
  fun j => max (affine x w b j) 0

/-- The host's affine map: the whole product plus the bias vector made a row and repeated down the rows. The row
    the kernel is handed is any 1×N array with the vector's entries. -/
theorem host_affine_eq (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (prec : Option ContractPrecision) (sched : HostSchedule)
    (x : FVec Ideal ⟨2, ![R, K]⟩ .f32) (w : FVec Ideal ⟨2, ![K, N]⟩ .f32) (b : FVec Ideal ⟨1, ![N]⟩ .f32)
    (row : FVec Ideal ⟨2, ![1, N]⟩ .f32) (hrow : ∀ k : Fin N, row (ix2 (0 : Fin 1) k) = b (ix1 k)) :
    addf (FloatOps.dotGeneral (DotDims.plain R K N) prec sched x w)
        (broadcastInDim ⟨2, ![R, N]⟩ (![0, 1] : Fin 2 → Fin 2) h2 (broadcastInDim ⟨2, ![1, N]⟩ (![1] : Fin 1 → Fin 2) h1 b))
      = affine x w row := by
  funext j
  obtain ⟨r, c, rfl⟩ : ∃ (r : Fin R) (c : Fin N), j = ix2 r c := ⟨j 0, j 1, eq_ix2 j⟩
  show (FloatOps.dotGeneral (DotDims.plain R K N) prec sched x w (ix2 r c) : EReal) + _ = _
  rw [LibPlainDot.dotGeneral_plain_apply, LibRowBias.hostRow_apply h1 h2 b r c]
  show _ = (∑ k : Fin K, x (ix2 r k) * w (ix2 k c)) + row (ix2 (0 : Fin 1) c)
  rw [hrow c]
  rfl

/-- The host's dense layer with the rectifier: the maximum of the affine map with a splat of the zero word. -/
theorem host_affineRelu_eq (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2))
    (prec : Option ContractPrecision) (sched : HostSchedule)
    (x : FVec Ideal ⟨2, ![R, K]⟩ .f32) (w : FVec Ideal ⟨2, ![K, N]⟩ .f32) (b : FVec Ideal ⟨1, ![N]⟩ .f32)
    (row : FVec Ideal ⟨2, ![1, N]⟩ .f32) (hrow : ∀ k : Fin N, row (ix2 (0 : Fin 1) k) = b (ix1 k)) :
    maximumf (addf (FloatOps.dotGeneral (DotDims.plain R K N) prec sched x w)
        (broadcastInDim ⟨2, ![R, N]⟩ (![0, 1] : Fin 2 → Fin 2) h2 (broadcastInDim ⟨2, ![1, N]⟩ (![1] : Fin 1 → Fin 2) h1 b)))
        (broadcastInDim ⟨2, ![R, N]⟩ (![] : Fin 0 → Fin 2) h0 (constant (F := Ideal) ⟨0, ![]⟩ .f32 0x00000000#32))
      = affineRelu x w row := by
  rw [host_affine_eq h1 h2 prec sched x w b row hrow]
  funext j
  show max (affine x w row j) (broadcastInDim ⟨2, ![R, N]⟩ (![] : Fin 0 → Fin 2) h0 (constant (F := Ideal) ⟨0, ![]⟩ .f32 0x00000000#32) j) = _
  rw [LibRowBias.hostSplat_apply h0]
  show max (affine x w row j) (Ideal.ofBits .f32 0x00000000#32) = _
  rw [Ideal.ofBits_zero_f32]
  rfl

/-- A bare host product is the affine map whose bias row is zero everywhere: adding zero changes no extended real. -/
theorem host_prod_eq (prec : Option ContractPrecision) (sched : HostSchedule)
    (x : FVec Ideal ⟨2, ![R, K]⟩ .f32) (w : FVec Ideal ⟨2, ![K, N]⟩ .f32)
    (row : FVec Ideal ⟨2, ![1, N]⟩ .f32) (hrow : ∀ k : Fin N, (row (ix2 (0 : Fin 1) k) : EReal) = 0) :
    FloatOps.dotGeneral (DotDims.plain R K N) prec sched x w = affine x w row := by
  funext j
  obtain ⟨r, c, rfl⟩ : ∃ (r : Fin R) (c : Fin N), j = ix2 r c := ⟨j 0, j 1, eq_ix2 j⟩
  rw [LibPlainDot.dotGeneral_plain_apply]
  show _ = (∑ k : Fin K, x (ix2 r k) * w (ix2 k c)) + row (ix2 (0 : Fin 1) c)
  rw [hrow c, add_zero]
  rfl

end Cert.Dense

end
-- ==== Proof.Blocks.lean ====
/-
  From blocks to arrays, for each of the three regions at ANY contents `V` of the buffers when the region is
  entered: each grid point writes back one 5000-row block of the output, the block's rows being the dense layer of
  the same rows of the input array with the whole weight matrix and bias row; the ten blocks tile the 50000 rows;
  so the output array ends holding the dense layer of the whole input array.
-/
import proofs.«125223_j53618371723995_1_alg».proof.Proof.Gen.KernelIdeal.Frame
import proofs.«125223_j53618371723995_1_alg».proof.Proof.DenseBody
import proofs.«125223_j53618371723995_1_alg».proof.Proof.DenseSpec
import Idealize.ShloMosaic.Lib.Pipeline.Value

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps of region 0, decided over its ten grid points: the row-block window and the output window
    move together along the rows, one block per point; the weight and bias windows stay on their one block. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some grid point's. -/
theorem idx_onto0 : ∀ (q0 : Fin 10), ∃ t : Fin cfg0.N, win0_3.index t = ![q0.val, 0] :=
  (by decide +kernel : ∀ (q0 : Fin 10), ∃ t : Fin grid0.N, win0_3.index t = ![q0.val, 0])

/-- What grid point `t` of region 0 writes back is block `t` of the dense layer of the three arrays the region finds. -/
theorem flushed0_eq (c : Dev nD) (t : Fin cfg0.N) :
    (dat0 V c).flushed 3 t = ((cfg0.win 3).blk t).view.read (Elt Ideal)
      (Dense.affineRelu (R := 50000) (K := 128) (N := 128) (V c main_v35) (V c main_arg3) (V c main_v36)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts0 t
  funext y
  obtain ⟨p, q, rfl⟩ : ∃ (p : Fin 5000) (q : Fin 128), y = ix2 p q := ⟨y 0, y 1, eq_ix2 y⟩
  refine (DenseBody.pay0_apply (iblk0 V c 0 t) (iblk0 V c 1 t) (iblk0 V c 2 t) p q).trans ?_
  have hx : ∀ k : Fin 128, iblk0 V c 0 t (ix2 p k)
      = V c main_v35 (ix2 ((((cfg0.win 3).blk t).view.emb (ix2 p q)) 0) k) := fun k => by
    show V c main_v35 (((cfg0.win 0).blk t).view.emb (ix2 p k)) = _
    refine congrArg (V c main_v35) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have hw : ∀ k : Fin 128, iblk0 V c 1 t (ix2 k q)
      = V c main_arg3 (ix2 k ((((cfg0.win 3).blk t).view.emb (ix2 p q)) 1)) := fun k => by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have hb : iblk0 V c 2 t (ix2 (0 : Fin 1) q)
      = V c main_v36 (ix2 (0 : Fin 1) ((((cfg0.win 3).blk t).view.emb (ix2 p q)) 1)) := by
    show V c main_v36 (((cfg0.win 2).blk t).view.emb (ix2 (0 : Fin 1) q)) = _
    refine congrArg (V c main_v36) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  rw [View.read_apply]
  unfold Dense.affineRelu Dense.affine
  rw [hb, Finset.sum_congr rfl fun k _ => by rw [hx k, hw k]]
  rfl

/-- An index of region 0's output array is in point `t`'s block iff each coordinate is in the block's range. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v37).slice (win0_3.rect t)).set ↔ _
  rw [View.set_slice_whole, Rect.mem_set_unit]
  exact Iff.rfl

/-- The ten row blocks tile the output array: row r is in the block of the point whose block index is r / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- Region 0's output array after the region: the dense layer of the arrays the region finds, whole. -/
theorem final0 (c : Dev nD) :
    (dat0 V c).arrAt 3 cfg0.N
      = Dense.affineRelu (R := 50000) (K := 128) (N := 128) (V c main_v35) (V c main_arg3) (V c main_v36) :=
  (dat0 V c).arrAt_eq_of_cover 3 _ (fun t _ => flushed0_eq V c t) (cover0)

/-! ## Region 1 -/

/-- The printed index maps of region 1, decided over its ten grid points: the row-block window and the output window
    move together along the rows, one block per point; the weight and bias windows stay on their one block. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every one of the ten row blocks is some grid point's. -/
theorem idx_onto1 : ∀ (q0 : Fin 10), ∃ t : Fin cfg1.N, win1_3.index t = ![q0.val, 0] :=
  (by decide +kernel : ∀ (q0 : Fin 10), ∃ t : Fin grid1.N, win1_3.index t = ![q0.val, 0])

/-- What grid point `t` of region 1 writes back is block `t` of the dense layer of the three arrays the region finds. -/
theorem flushed1_eq (c : Dev nD) (t : Fin cfg1.N) :
    (dat1 V c).flushed 3 t = ((cfg1.win 3).blk t).view.read (Elt Ideal)
      (Dense.affineRelu (R := 50000) (K := 128) (N := 128) (V c main_v60) (V c main_arg5) (V c main_v61)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts1 t
  funext y
  obtain ⟨p, q, rfl⟩ : ∃ (p : Fin 5000) (q : Fin 128), y = ix2 p q := ⟨y 0, y 1, eq_ix2 y⟩
  refine (DenseBody.pay1_apply (iblk1 V c 0 t) (iblk1 V c 1 t) (iblk1 V c 2 t) p q).trans ?_
  have hx : ∀ k : Fin 128, iblk1 V c 0 t (ix2 p k)
      = V c main_v60 (ix2 ((((cfg1.win 3).blk t).view.emb (ix2 p q)) 0) k) := fun k => by
    show V c main_v60 (((cfg1.win 0).blk t).view.emb (ix2 p k)) = _
    refine congrArg (V c main_v60) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have hw : ∀ k : Fin 128, iblk1 V c 1 t (ix2 k q)
      = V c main_arg5 (ix2 k ((((cfg1.win 3).blk t).view.emb (ix2 p q)) 1)) := fun k => by
    show V c main_arg5 (((cfg1.win 1).blk t).view.emb (ix2 k q)) = _
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  have hb : iblk1 V c 2 t (ix2 (0 : Fin 1) q)
      = V c main_v61 (ix2 (0 : Fin 1) ((((cfg1.win 3).blk t).view.emb (ix2 p q)) 1)) := by
    show V c main_v61 (((cfg1.win 2).blk t).view.emb (ix2 (0 : Fin 1) q)) = _
    refine congrArg (V c main_v61) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [View.read_apply]
  unfold Dense.affineRelu Dense.affine
  rw [hb, Finset.sum_congr rfl fun k _ => by rw [hx k, hw k]]
  rfl

/-- An index of region 1's output array is in point `t`'s block iff each coordinate is in the block's range. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v62).slice (win1_3.rect t)).set ↔ _
  rw [View.set_slice_whole, Rect.mem_set_unit]
  exact Iff.rfl

/-- The ten row blocks tile the output array: row r is in the block of the point whose block index is r / 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- Region 1's output array after the region: the dense layer of the arrays the region finds, whole. -/
theorem final1 (c : Dev nD) :
    (dat1 V c).arrAt 3 cfg1.N
      = Dense.affineRelu (R := 50000) (K := 128) (N := 128) (V c main_v60) (V c main_arg5) (V c main_v61) :=
  (dat1 V c).arrAt_eq_of_cover 3 _ (fun t _ => flushed1_eq V c t) (cover1)

/-! ## Region 2 -/

/-- The printed index maps of region 2, decided over its ten grid points: the row-block window and the output window
    move together along the rows, one block per point; the weight and bias windows stay on their one block. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every one of the ten row blocks is some grid point's. -/
theorem idx_onto2 : ∀ (q0 : Fin 10), ∃ t : Fin cfg2.N, win2_3.index t = ![q0.val, 0] :=
  (by decide +kernel : ∀ (q0 : Fin 10), ∃ t : Fin grid2.N, win2_3.index t = ![q0.val, 0])

/-- What grid point `t` of region 2 writes back is block `t` of the dense layer of the three arrays the region finds. -/
theorem flushed2_eq (c : Dev nD) (t : Fin cfg2.N) :
    (dat2 V c).flushed 3 t = ((cfg2.win 3).blk t).view.read (Elt Ideal)
      (Dense.affine (R := 50000) (K := 128) (N := 40) (V c main_v62) (V c main_arg7) (V c main_v64)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x40) hz, View.ld_unit_zero (S := S1x40) hz]
  obtain ⟨e0, e1, e2, e3, e4, e5, e6, e7⟩ := idx_facts2 t
  funext y
  obtain ⟨p, q, rfl⟩ : ∃ (p : Fin 5000) (q : Fin 40), y = ix2 p q := ⟨y 0, y 1, eq_ix2 y⟩
  refine (DenseBody.pay2_apply (iblk2 V c 0 t) (iblk2 V c 1 t) (iblk2 V c 2 t) p q).trans ?_
  have hx : ∀ k : Fin 128, iblk2 V c 0 t (ix2 p k)
      = V c main_v62 (ix2 ((((cfg2.win 3).blk t).view.emb (ix2 p q)) 0) k) := fun k => by
    show V c main_v62 (((cfg2.win 0).blk t).view.emb (ix2 p k)) = _
    refine congrArg (V c main_v62) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  have hw : ∀ k : Fin 128, iblk2 V c 1 t (ix2 k q)
      = V c main_arg7 (ix2 k ((((cfg2.win 3).blk t).view.emb (ix2 p q)) 1)) := fun k => by
    show V c main_arg7 (((cfg2.win 1).blk t).view.emb (ix2 k q)) = _
    refine congrArg (V c main_arg7) (funext fun a => Fin.ext ?_)
    match a with
    | ⟨0, _⟩ => show win2_1.index t (0 : Fin 2) * 128 + 1 * k.val = k.val; omega
    | ⟨1, _⟩ => show win2_1.index t (1 : Fin 2) * 40 + 1 * q.val = win2_3.index t (1 : Fin 2) * 40 + 1 * q.val; omega
  have hb : iblk2 V c 2 t (ix2 (0 : Fin 1) q)
      = V c main_v64 (ix2 (0 : Fin 1) ((((cfg2.win 3).blk t).view.emb (ix2 p q)) 1)) := by
    show V c main_v64 (((cfg2.win 2).blk t).view.emb (ix2 (0 : Fin 1) q)) = _
    refine congrArg (V c main_v64) (funext fun a => Fin.ext ?_)
    match a with
    | ⟨0, _⟩ => show win2_2.index t (0 : Fin 2) * 1 + 1 * 0 = 0; omega
    | ⟨1, _⟩ => show win2_2.index t (1 : Fin 2) * 40 + 1 * q.val = win2_3.index t (1 : Fin 2) * 40 + 1 * q.val; omega
  rw [View.read_apply]
  unfold Dense.affine
  rw [hb, Finset.sum_congr rfl fun k _ => by rw [hx k, hw k]]
  rfl

/-- An index of region 2's output array is in point `t`'s block iff each coordinate is in the block's range. -/
theorem mem_blk2 (t : Fin cfg2.N) (i : S50000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v65).slice (win2_3.rect t)).set ↔ _
  rw [View.set_slice_whole, Rect.mem_set_unit]
  exact Iff.rfl

/-- The ten row blocks tile the output array: row r is in the block of the point whose block index is r / 5000. -/
theorem cover2 (i : S50000x40.Idx) :
    ∃ t : Fin cfg2.N, (cfg2.win 3).flush t = true ∧ i ∈ ((cfg2.win 3).blk t).view.set := by
  have hi0 : (i 0).val < 50000 := (i 0).isLt
  have hi1 : (i 1).val < 40 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 40 ≤ (i 1).val ∧ (i 1).val < win2_3.index t (1 : Fin 2) * 40 + 40; omega

/-- Region 2's output array after the region: the dense layer of the arrays the region finds, whole. -/
theorem final2 (c : Dev nD) :
    (dat2 V c).arrAt 3 cfg2.N
      = Dense.affine (R := 50000) (K := 128) (N := 40) (V c main_v62) (V c main_arg7) (V c main_v64) :=
  (dat2 V c).arrAt_eq_of_cover 3 _ (fun t _ => flushed2_eq V c t) (cover2)

end Cert.KernelIdeal.Blocks

end
-- ==== Proof.KernelValue.lean ====
/-
  The idealized kernel's result buffer, followed back through @main's seven segments to the argument arrays and
  written with the reference's own stage functions. Every host stretch of the kernel is, operation for operation, a
  stretch of the reference (the degree normalisers, the gather along the edges' sources, the scatter-add onto their
  destinations, the two scalings); each region's output array is the dense layer of the arrays it finds, which is the
  reference's product plus bias row, with the rectifier for the first two layers, and for the third layer the bare
  product, the kernel's bias row there being zero.
-/
import proofs.«125223_j53618371723995_1_alg».proof.Proof.Gen.KernelIdeal.Frame
import proofs.«125223_j53618371723995_1_alg».proof.Proof.Gen.ReferenceIdeal.Read
import proofs.«125223_j53618371723995_1_alg».proof.Proof.Blocks
import proofs.«125223_j53618371723995_1_alg».proof.Proof.DenseSpec
import proofs.«125223_j53618371723995_1_alg».proof.Proof.LibRowBias
import Idealize.ShloMosaic.Lib.StableHlo.Run
import Idealize.ShloMosaic.Lib.ValueLayout

set_option maxRecDepth 16384
set_option maxHeartbeats 4000000

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## Region 0's entry: after the first host stretch -/

theorem W1_v35 : W1 m ρ c (Proc.devRef .tc main_v35) = Cert.ReferenceIdeal.Read.val_main_v35 (F := Ideal) (m ((c : Thread nD τ).loc main_arg0)) (m ((c : Thread nD τ).loc main_arg1)) (m ((c : Thread nD τ).loc main_arg2)) := by
  show StableHlo.after hostOps0 (W0 m ρ c) (Proc.devRef .tc main_v35) = _
  after_results_simp <;> rfl

theorem W1_v36 : W1 m ρ c (Proc.devRef .tc main_v36) = shapeCast S1x128 (m ((c : Thread nD τ).loc main_arg4)) shapeCasts_S128_S1x128 := by
  show StableHlo.after hostOps0 (W0 m ρ c) (Proc.devRef .tc main_v36) = _
  after_results_simp <;> rfl

theorem W1_v9 : W1 m ρ c (Proc.devRef .tc main_v9) = Cert.ReferenceIdeal.Read.val_main_v9 (F := Ideal) (m ((c : Thread nD τ).loc main_arg1)) := by
  show StableHlo.after hostOps0 (W0 m ρ c) (Proc.devRef .tc main_v9) = _
  after_results_simp <;> rfl

theorem W1_v12 : W1 m ρ c (Proc.devRef .tc main_v12) = Cert.ReferenceIdeal.Read.val_main_v12 (F := Ideal) (m ((c : Thread nD τ).loc main_arg2)) := by
  show StableHlo.after hostOps0 (W0 m ρ c) (Proc.devRef .tc main_v12) = _
  after_results_simp <;> rfl

theorem W1_arg1 : W1 m ρ c (Proc.devRef .tc main_arg1) = (m ((c : Thread nD τ).loc main_arg1)) := by
  show StableHlo.after hostOps0 (W0 m ρ c) (Proc.devRef .tc main_arg1) = _
  after_results_simp <;> rfl

theorem W1_arg2 : W1 m ρ c (Proc.devRef .tc main_arg2) = (m ((c : Thread nD τ).loc main_arg2)) := by
  show StableHlo.after hostOps0 (W0 m ρ c) (Proc.devRef .tc main_arg2) = _
  after_results_simp <;> rfl

theorem W1_arg3 : W1 m ρ c (Proc.devRef .tc main_arg3) = (m ((c : Thread nD τ).loc main_arg3)) := by
  show StableHlo.after hostOps0 (W0 m ρ c) (Proc.devRef .tc main_arg3) = _
  after_results_simp <;> rfl

theorem W1_arg5 : W1 m ρ c (Proc.devRef .tc main_arg5) = (m ((c : Thread nD τ).loc main_arg5)) := by
  show StableHlo.after hostOps0 (W0 m ρ c) (Proc.devRef .tc main_arg5) = _
  after_results_simp <;> rfl

theorem W1_arg6 : W1 m ρ c (Proc.devRef .tc main_arg6) = (m ((c : Thread nD τ).loc main_arg6)) := by
  show StableHlo.after hostOps0 (W0 m ρ c) (Proc.devRef .tc main_arg6) = _
  after_results_simp <;> rfl

theorem W1_arg7 : W1 m ρ c (Proc.devRef .tc main_arg7) = (m ((c : Thread nD τ).loc main_arg7)) := by
  show StableHlo.after hostOps0 (W0 m ρ c) (Proc.devRef .tc main_arg7) = _
  after_results_simp <;> rfl

theorem W1_arg8 : W1 m ρ c (Proc.devRef .tc main_arg8) = (m ((c : Thread nD τ).loc main_arg8)) := by
  show StableHlo.after hostOps0 (W0 m ρ c) (Proc.devRef .tc main_arg8) = _
  after_results_simp <;> rfl

/-! ## Region 0's exit -/

theorem W2_v9 : W2 m ρ c (Proc.devRef .tc main_v9) = Cert.ReferenceIdeal.Read.val_main_v9 (F := Ideal) (m ((c : Thread nD τ).loc main_arg1)) :=
  (W2_of_ne m ρ c main_v9 (by decide)).trans (W1_v9 m ρ c)

theorem W2_v12 : W2 m ρ c (Proc.devRef .tc main_v12) = Cert.ReferenceIdeal.Read.val_main_v12 (F := Ideal) (m ((c : Thread nD τ).loc main_arg2)) :=
  (W2_of_ne m ρ c main_v12 (by decide)).trans (W1_v12 m ρ c)

theorem W2_arg1 : W2 m ρ c (Proc.devRef .tc main_arg1) = (m ((c : Thread nD τ).loc main_arg1)) :=
  (W2_of_ne m ρ c main_arg1 (by decide)).trans (W1_arg1 m ρ c)

theorem W2_arg2 : W2 m ρ c (Proc.devRef .tc main_arg2) = (m ((c : Thread nD τ).loc main_arg2)) :=
  (W2_of_ne m ρ c main_arg2 (by decide)).trans (W1_arg2 m ρ c)

theorem W2_arg5 : W2 m ρ c (Proc.devRef .tc main_arg5) = (m ((c : Thread nD τ).loc main_arg5)) :=
  (W2_of_ne m ρ c main_arg5 (by decide)).trans (W1_arg5 m ρ c)

theorem W2_arg6 : W2 m ρ c (Proc.devRef .tc main_arg6) = (m ((c : Thread nD τ).loc main_arg6)) :=
  (W2_of_ne m ρ c main_arg6 (by decide)).trans (W1_arg6 m ρ c)

theorem W2_arg7 : W2 m ρ c (Proc.devRef .tc main_arg7) = (m ((c : Thread nD τ).loc main_arg7)) :=
  (W2_of_ne m ρ c main_arg7 (by decide)).trans (W1_arg7 m ρ c)

theorem W2_arg8 : W2 m ρ c (Proc.devRef .tc main_arg8) = (m ((c : Thread nD τ).loc main_arg8)) :=
  (W2_of_ne m ρ c main_arg8 (by decide)).trans (W1_arg8 m ρ c)

/-- The first layer: the dense layer of the first aggregate with W1 and the bias row is the reference's product, bias
    and rectifier. -/
theorem W2_v37 : W2 m ρ c (Proc.devRef .tc main_v37) = Cert.ReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 3).trans ?_
  refine (Blocks.final0 (V1 m ρ) c).trans ?_
  have hx : V1 m ρ c main_v35 = Cert.ReferenceIdeal.Read.val_main_v35 (F := Ideal) (m ((c : Thread nD τ).loc main_arg0)) (m ((c : Thread nD τ).loc main_arg1)) (m ((c : Thread nD τ).loc main_arg2)) := W1_v35 m ρ c
  have hw : V1 m ρ c main_arg3 = (m ((c : Thread nD τ).loc main_arg3)) := W1_arg3 m ρ c
  have hb : V1 m ρ c main_v36 = shapeCast S1x128 (m ((c : Thread nD τ).loc main_arg4)) shapeCasts_S128_S1x128 := W1_v36 m ρ c
  rw [hx, hw, hb]
  exact (Dense.host_affineRelu_eq (R := 50000) (K := 128) (N := 128) _ _ _ none _
    (Cert.ReferenceIdeal.Read.val_main_v35 (F := Ideal) (m ((c : Thread nD τ).loc main_arg0)) (m ((c : Thread nD τ).loc main_arg1)) (m ((c : Thread nD τ).loc main_arg2))) (m ((c : Thread nD τ).loc main_arg3)) (m ((c : Thread nD τ).loc main_arg4)) (shapeCast S1x128 (m ((c : Thread nD τ).loc main_arg4)) shapeCasts_S128_S1x128)
    (fun k => shapeCast_a_1a_apply (a := 128) (m ((c : Thread nD τ).loc main_arg4)) shapeCasts_S128_S1x128 0 k)).symm

/-! ## Region 1's entry: after the second host stretch -/

theorem W3_arg5 : W3 m ρ c (Proc.devRef .tc main_arg5) = (m ((c : Thread nD τ).loc main_arg5)) := by
  show StableHlo.after hostOps1 (W2 m ρ c) (Proc.devRef .tc main_arg5) = _
  after_results_simp
  exact W2_arg5 m ρ c

theorem W3_v9 : W3 m ρ c (Proc.devRef .tc main_v9) = Cert.ReferenceIdeal.Read.val_main_v9 (F := Ideal) (m ((c : Thread nD τ).loc main_arg1)) := by
  show StableHlo.after hostOps1 (W2 m ρ c) (Proc.devRef .tc main_v9) = _
  after_results_simp
  exact W2_v9 m ρ c

theorem W3_v12 : W3 m ρ c (Proc.devRef .tc main_v12) = Cert.ReferenceIdeal.Read.val_main_v12 (F := Ideal) (m ((c : Thread nD τ).loc main_arg2)) := by
  show StableHlo.after hostOps1 (W2 m ρ c) (Proc.devRef .tc main_v12) = _
  after_results_simp
  exact W2_v12 m ρ c

theorem W3_arg1 : W3 m ρ c (Proc.devRef .tc main_arg1) = (m ((c : Thread nD τ).loc main_arg1)) := by
  show StableHlo.after hostOps1 (W2 m ρ c) (Proc.devRef .tc main_arg1) = _
  after_results_simp
  exact W2_arg1 m ρ c

theorem W3_arg2 : W3 m ρ c (Proc.devRef .tc main_arg2) = (m ((c : Thread nD τ).loc main_arg2)) := by
  show StableHlo.after hostOps1 (W2 m ρ c) (Proc.devRef .tc main_arg2) = _
  after_results_simp
  exact W2_arg2 m ρ c

theorem W3_arg7 : W3 m ρ c (Proc.devRef .tc main_arg7) = (m ((c : Thread nD τ).loc main_arg7)) := by
  show StableHlo.after hostOps1 (W2 m ρ c) (Proc.devRef .tc main_arg7) = _
  after_results_simp
  exact W2_arg7 m ρ c

theorem W3_arg8 : W3 m ρ c (Proc.devRef .tc main_arg8) = (m ((c : Thread nD τ).loc main_arg8)) := by
  show StableHlo.after hostOps1 (W2 m ρ c) (Proc.devRef .tc main_arg8) = _
  after_results_simp
  exact W2_arg8 m ρ c

theorem W3_v61 : W3 m ρ c (Proc.devRef .tc main_v61) = shapeCast S1x128 (m ((c : Thread nD τ).loc main_arg6)) shapeCasts_S128_S1x128 := by
  show StableHlo.after hostOps1 (W2 m ρ c) (Proc.devRef .tc main_v61) = _
  after_results_simp
  rw [W2_arg6 m ρ c]
  rfl

/-- The second aggregate: the kernel's second host stretch is the reference's, on the first layer's output. -/
theorem W3_v60 : W3 m ρ c (Proc.devRef .tc main_v60) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v60) = _
  after_results_simp
  rw [W2_v37 m ρ c, W2_arg1 m ρ c, W2_arg2 m ρ c, W2_v9 m ρ c, W2_v12 m ρ c]
  rfl

/-! ## Region 1's exit -/

theorem W4_v9 : W4 m ρ c (Proc.devRef .tc main_v9) = Cert.ReferenceIdeal.Read.val_main_v9 (F := Ideal) (m ((c : Thread nD τ).loc main_arg1)) :=
  (W4_of_ne m ρ c main_v9 (by decide)).trans (W3_v9 m ρ c)

theorem W4_v12 : W4 m ρ c (Proc.devRef .tc main_v12) = Cert.ReferenceIdeal.Read.val_main_v12 (F := Ideal) (m ((c : Thread nD τ).loc main_arg2)) :=
  (W4_of_ne m ρ c main_v12 (by decide)).trans (W3_v12 m ρ c)

theorem W4_arg1 : W4 m ρ c (Proc.devRef .tc main_arg1) = (m ((c : Thread nD τ).loc main_arg1)) :=
  (W4_of_ne m ρ c main_arg1 (by decide)).trans (W3_arg1 m ρ c)

theorem W4_arg2 : W4 m ρ c (Proc.devRef .tc main_arg2) = (m ((c : Thread nD τ).loc main_arg2)) :=
  (W4_of_ne m ρ c main_arg2 (by decide)).trans (W3_arg2 m ρ c)

theorem W4_arg7 : W4 m ρ c (Proc.devRef .tc main_arg7) = (m ((c : Thread nD τ).loc main_arg7)) :=
  (W4_of_ne m ρ c main_arg7 (by decide)).trans (W3_arg7 m ρ c)

theorem W4_arg8 : W4 m ρ c (Proc.devRef .tc main_arg8) = (m ((c : Thread nD τ).loc main_arg8)) :=
  (W4_of_ne m ρ c main_arg8 (by decide)).trans (W3_arg8 m ρ c)

/-- The second layer. -/
theorem W4_v62 : W4 m ρ c (Proc.devRef .tc main_v62) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W4_arr m ρ c 3).trans ?_
  refine (Blocks.final1 (V3 m ρ) c).trans ?_
  have hx : V3 m ρ c main_v60 = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := W3_v60 m ρ c
  have hw : V3 m ρ c main_arg5 = (m ((c : Thread nD τ).loc main_arg5)) := W3_arg5 m ρ c
  have hb : V3 m ρ c main_v61 = shapeCast S1x128 (m ((c : Thread nD τ).loc main_arg6)) shapeCasts_S128_S1x128 := W3_v61 m ρ c
  rw [hx, hw, hb]
  exact (Dense.host_affineRelu_eq (R := 50000) (K := 128) (N := 128) _ _ _ none _
    (Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (shapeCast S1x128 (m ((c : Thread nD τ).loc main_arg6)) shapeCasts_S128_S1x128)
    (fun k => shapeCast_a_1a_apply (a := 128) (m ((c : Thread nD τ).loc main_arg6)) shapeCasts_S128_S1x128 0 k)).symm

/-! ## Region 2's entry: after the third host stretch (a zero bias row) -/

theorem W5_v9 : W5 m ρ c (Proc.devRef .tc main_v9) = Cert.ReferenceIdeal.Read.val_main_v9 (F := Ideal) (m ((c : Thread nD τ).loc main_arg1)) := by
  show StableHlo.after hostOps2 (W4 m ρ c) (Proc.devRef .tc main_v9) = _
  after_results_simp
  exact W4_v9 m ρ c

theorem W5_v12 : W5 m ρ c (Proc.devRef .tc main_v12) = Cert.ReferenceIdeal.Read.val_main_v12 (F := Ideal) (m ((c : Thread nD τ).loc main_arg2)) := by
  show StableHlo.after hostOps2 (W4 m ρ c) (Proc.devRef .tc main_v12) = _
  after_results_simp
  exact W4_v12 m ρ c

theorem W5_arg1 : W5 m ρ c (Proc.devRef .tc main_arg1) = (m ((c : Thread nD τ).loc main_arg1)) := by
  show StableHlo.after hostOps2 (W4 m ρ c) (Proc.devRef .tc main_arg1) = _
  after_results_simp
  exact W4_arg1 m ρ c

theorem W5_arg2 : W5 m ρ c (Proc.devRef .tc main_arg2) = (m ((c : Thread nD τ).loc main_arg2)) := by
  show StableHlo.after hostOps2 (W4 m ρ c) (Proc.devRef .tc main_arg2) = _
  after_results_simp
  exact W4_arg2 m ρ c

theorem W5_arg7 : W5 m ρ c (Proc.devRef .tc main_arg7) = (m ((c : Thread nD τ).loc main_arg7)) := by
  show StableHlo.after hostOps2 (W4 m ρ c) (Proc.devRef .tc main_arg7) = _
  after_results_simp
  exact W4_arg7 m ρ c

theorem W5_arg8 : W5 m ρ c (Proc.devRef .tc main_arg8) = (m ((c : Thread nD τ).loc main_arg8)) := by
  show StableHlo.after hostOps2 (W4 m ρ c) (Proc.devRef .tc main_arg8) = _
  after_results_simp
  exact W4_arg8 m ρ c

theorem W5_v62 : W5 m ρ c (Proc.devRef .tc main_v62) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W4 m ρ c) (Proc.devRef .tc main_v62) = _
  after_results_simp
  exact W4_v62 m ρ c

theorem W5_v64 : W5 m ρ c (Proc.devRef .tc main_v64)
    = shapeCast S1x40 (broadcastInDim S40 ![] bcast_S_S40 (constant (F := Ideal) S_ .f32 0x00000000#32)) shapeCasts_S40_S1x40 := by
  show StableHlo.after hostOps2 (W4 m ρ c) (Proc.devRef .tc main_v64) = _
  after_results_simp <;> rfl

/-! ## Region 2's exit -/

theorem W6_v9 : W6 m ρ c (Proc.devRef .tc main_v9) = Cert.ReferenceIdeal.Read.val_main_v9 (F := Ideal) (m ((c : Thread nD τ).loc main_arg1)) :=
  (W6_of_ne m ρ c main_v9 (by decide)).trans (W5_v9 m ρ c)

theorem W6_v12 : W6 m ρ c (Proc.devRef .tc main_v12) = Cert.ReferenceIdeal.Read.val_main_v12 (F := Ideal) (m ((c : Thread nD τ).loc main_arg2)) :=
  (W6_of_ne m ρ c main_v12 (by decide)).trans (W5_v12 m ρ c)

theorem W6_arg1 : W6 m ρ c (Proc.devRef .tc main_arg1) = (m ((c : Thread nD τ).loc main_arg1)) :=
  (W6_of_ne m ρ c main_arg1 (by decide)).trans (W5_arg1 m ρ c)

theorem W6_arg2 : W6 m ρ c (Proc.devRef .tc main_arg2) = (m ((c : Thread nD τ).loc main_arg2)) :=
  (W6_of_ne m ρ c main_arg2 (by decide)).trans (W5_arg2 m ρ c)

theorem W6_arg8 : W6 m ρ c (Proc.devRef .tc main_arg8) = (m ((c : Thread nD τ).loc main_arg8)) :=
  (W6_of_ne m ρ c main_arg8 (by decide)).trans (W5_arg8 m ρ c)

/-- The third layer's product: the kernel adds a bias row of zeros, which changes nothing. -/
theorem W6_v65 : W6 m ρ c (Proc.devRef .tc main_v65) = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 3).trans ?_
  refine (Blocks.final2 (V5 m ρ) c).trans ?_
  have hx : V5 m ρ c main_v62 = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := W5_v62 m ρ c
  have hw : V5 m ρ c main_arg7 = (m ((c : Thread nD τ).loc main_arg7)) := W5_arg7 m ρ c
  have hb : V5 m ρ c main_v64
      = shapeCast S1x40 (broadcastInDim S40 ![] bcast_S_S40 (constant (F := Ideal) S_ .f32 0x00000000#32)) shapeCasts_S40_S1x40 := W5_v64 m ρ c
  rw [hx, hw, hb]
  exact (Dense.host_prod_eq (R := 50000) (K := 128) (N := 40) none _
    (Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7))
    (shapeCast S1x40 (broadcastInDim S40 ![] bcast_S_S40 (constant (F := Ideal) S_ .f32 0x00000000#32)) shapeCasts_S40_S1x40)
    (fun k => (shapeCast_a_1a_apply (a := 40) _ shapeCasts_S40_S1x40 0 k).trans
      ((LibRowBias.hostSplat_apply bcast_S_S40 _ (ix1 k)).trans Ideal.ofBits_zero_f32))).symm

/-! ## The result: after the last host stretch -/

/-- The kernel's result buffer holds the reference's last stage of the argument arrays. -/
theorem W7_v91 : W7 m ρ c (Proc.devRef .tc main_v91) = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W6 m ρ c) (Proc.devRef .tc main_v91) = _
  after_results_simp
  rw [W6_v65 m ρ c, W6_arg1 m ρ c, W6_arg2 m ρ c, W6_arg8 m ρ c, W6_v9 m ρ c, W6_v12 m ρ c]
  rfl

end Cert.KernelIdeal.Chain

end
-- ==== Proof.lean ====
/-
  A three-layer graph convolution on 50000 nodes and 600000 edges: each layer scales the features by the source
  degree normaliser, gathers them along the edges' sources, adds them up at the edges' destinations, scales by the
  destination normaliser and applies a dense map; the first two layers end with the rectifier, the third multiplies by
  its weights before aggregating and adds its bias last.

  The kernel computes the three dense maps in three regions, each over ten blocks of 5000 rows, as a product into a
  zero accumulator plus a bias row, with the maximum with zero in the first two; everything else it does on the host
  with the reference's own operations. On the extended reals a product of a block of rows with the whole weight
  matrix is those rows of the whole product, the roundings on the way into the product are the identity, and the
  third region's bias row is zero, so each region's output array is the reference's stage, and the two results are
  one function of the arguments: no finiteness of the inputs is used.
-/
import proofs.«125223_j53618371723995_1_alg».proof.Defs
import proofs.«125223_j53618371723995_1_alg».proof.Proof.Gen.Kernel
import proofs.«125223_j53618371723995_1_alg».proof.Proof.Gen.Kernel.Skeleton
import proofs.«125223_j53618371723995_1_alg».proof.Proof.Gen.Kernel.Launch
import proofs.«125223_j53618371723995_1_alg».proof.Proof.Gen.Kernel.Points
import proofs.«125223_j53618371723995_1_alg».proof.Proof.Gen.Kernel.Frame
import proofs.«125223_j53618371723995_1_alg».proof.Proof.Gen.KernelIdeal
import proofs.«125223_j53618371723995_1_alg».proof.Proof.Gen.KernelIdeal.Skeleton
import proofs.«125223_j53618371723995_1_alg».proof.Proof.Gen.KernelIdeal.Launch
import proofs.«125223_j53618371723995_1_alg».proof.Proof.Gen.KernelIdeal.Points
import proofs.«125223_j53618371723995_1_alg».proof.Proof.Gen.KernelIdeal.Frame
import proofs.«125223_j53618371723995_1_alg».proof.Proof.Gen.ReferenceIdeal
import proofs.«125223_j53618371723995_1_alg».proof.Proof.Gen.Pre_finite_inputs
import proofs.«125223_j53618371723995_1_alg».proof.Proof.Gen.ReferenceIdeal.Read
import proofs.«125223_j53618371723995_1_alg».proof.Proof.KernelRun
import proofs.«125223_j53618371723995_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's last stage of the argument arrays in their result buffer. -/
theorem algebraic : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Chain.W7_v91 m ρ c), (h c).2⟩)
      (Cert.KernelIdeal.Run.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v95_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
